-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 96
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x64, .f32⟩
  | .hbm, ⟨95, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LayerSpec.lean ====
/-
  The mathematics both programs compute, stated once over plain index functions.

  A graph layer takes node features `X` (one row per node), an aggregate `A` of the same shape (the mean of each
  node's in-neighbours' rows), two weight matrices and a bias, and returns, at row `r` and column `o`,

      (Σ_k A[r,k]·Wl[k,o] + b[o]) + Σ_k X[r,k]·Wr[k,o]

  on the extended reals; a rectified layer takes the maximum of that with zero. Addition of extended reals is
  commutative and associative (only distributivity and cancellation need finiteness), so the same three summands in
  another grouping, `(Σ A·Wl + Σ X·Wr) + b`, are the same number: `dense_regroup`.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- Entry (r, o) of the dense combine of an aggregate `A` and features `X` (both N × K) with weights `Wl`, `Wr`
    (both K × D) and a bias `b` (length D): the aggregate's row against `Wl`'s column, plus the bias, plus the
    features' row against `Wr`'s column. -/
def denseAt {N K D : Nat} (A X : (⟨2, ![N, K]⟩ : Shape).Idx → EReal) (Wl Wr : (⟨2, ![K, D]⟩ : Shape).Idx → EReal)
    (b : Fin D → EReal) (r : Fin N) (o : Fin D) : EReal :=
  (∑ k : Fin K, A (ix2 r k) * Wl (ix2 k o) + b o) + ∑ k : Fin K, X (ix2 r k) * Wr (ix2 k o)

/-- The dense combine as an N × D array. -/
def dense {N K D : Nat} (A X : (⟨2, ![N, K]⟩ : Shape).Idx → EReal) (Wl Wr : (⟨2, ![K, D]⟩ : Shape).Idx → EReal)
    (b : Fin D → EReal) : (⟨2, ![N, D]⟩ : Shape).Idx → EReal :=
  fun i => denseAt A X Wl Wr b (i 0) (i 1)

/-- The rectifier, entry by entry: the maximum with the f32 zero word's value. -/
def relu {s : Shape} (y : s.Idx → EReal) : s.Idx → EReal :=
  fun i => max (y i) (Ideal.ofBits .f32 0x00000000#32)

theorem dense_apply {N K D : Nat} (A X : (⟨2, ![N, K]⟩ : Shape).Idx → EReal) (Wl Wr : (⟨2, ![K, D]⟩ : Shape).Idx → EReal)
    (b : Fin D → EReal) (r : Fin N) (o : Fin D) : dense A X Wl Wr b (ix2 r o) = denseAt A X Wl Wr b r o := rfl

/-- The two matrix products first and the bias last is the same entry: addition on the extended reals is commutative
    and associative. -/
theorem dense_regroup {N K D : Nat} (A X : (⟨2, ![N, K]⟩ : Shape).Idx → EReal) (Wl Wr : (⟨2, ![K, D]⟩ : Shape).Idx → EReal)
    (b : Fin D → EReal) (r : Fin N) (o : Fin D) :
    (∑ k : Fin K, A (ix2 r k) * Wl (ix2 k o) + ∑ k : Fin K, X (ix2 r k) * Wr (ix2 k o)) + b o = denseAt A X Wl Wr b r o := by
  unfold denseAt
  exact add_right_comm _ _ _

/-- An entry of the dense combine reads only row `r` of the aggregate and of the features, column `o` of the two
    weight matrices and the bias at `o`: two settings that agree there have the same entry. This is how a block of
    rows cut out of a tall array gives the tall array's entry. -/
theorem denseAt_congr {N N' K D : Nat} {A X : (⟨2, ![N, K]⟩ : Shape).Idx → EReal} {A' X' : (⟨2, ![N', K]⟩ : Shape).Idx → EReal}
    {Wl Wr Wl' Wr' : (⟨2, ![K, D]⟩ : Shape).Idx → EReal} {b b' : Fin D → EReal} {r : Fin N} {r' : Fin N'} {o o' : Fin D}
    (hA : ∀ k, A (ix2 r k) = A' (ix2 r' k)) (hX : ∀ k, X (ix2 r k) = X' (ix2 r' k))
    (hWl : ∀ k, Wl (ix2 k o) = Wl' (ix2 k o')) (hWr : ∀ k, Wr (ix2 k o) = Wr' (ix2 k o')) (hb : b o = b' o') :
    denseAt A X Wl Wr b r o = denseAt A' X' Wl' Wr' b' r' o' := by
  have e1 : ∑ k : Fin K, A (ix2 r k) * Wl (ix2 k o) = ∑ k : Fin K, A' (ix2 r' k) * Wl' (ix2 k o') :=
    Finset.sum_congr rfl fun k _ => by rw [hA k, hWl k]
  have e2 : ∑ k : Fin K, X (ix2 r k) * Wr (ix2 k o) = ∑ k : Fin K, X' (ix2 r' k) * Wr' (ix2 k o') :=
    Finset.sum_congr rfl fun k _ => by rw [hX k, hWr k]
  unfold denseAt
  rw [e1, e2, hb]

end Cert.Layer

end
-- ==== Proof.NetSpec.lean ====
/-
  The whole network both programs compute, as one function of the eleven argument arrays.

  `agg h e` is the mean aggregation over in-neighbours: the rows of `h` gathered at the edges' source nodes, summed into
  the edges' target nodes, and divided by the number of incoming edges clamped below at one. Both programs compute it
  with the same host operations in the same order, so it is carried here as ONE function — the reference's own stage
  for it — and never opened: nothing below depends on what it computes, only on both sides applying it to equal
  arguments.

  A layer is the (rectified) dense combine of `LayerSpec` of the aggregate of the features and the features themselves;
  the network is three layers, the last one not rectified and 64 columns wide.
-/
import proofs.«171535_j16862041604204_1_alg».proof.Proof.Gen.ReferenceIdeal.Read
import proofs.«171535_j16862041604204_1_alg».proof.Proof.LayerSpec

noncomputable section

namespace Cert.Net

open Idealize.ShloMosaic Idealize.ShloMosaic.ValueIdx Cert.ReferenceIdeal Cert.Layer

/-- Node features: 50000 nodes, 128 columns. -/
abbrev Feat : Type := (⟨S50000x128, .f32⟩ : BufTy).Contents (Elt Ideal)
/-- The edge list: row 0 the source nodes, row 1 the target nodes, 800000 edges. -/
abbrev Edges : Type := (⟨S2x800000, .i32⟩ : BufTy).Contents (Elt Ideal)

/-- The mean of each node's in-neighbours' rows. -/
def agg (h : Feat) (e : Edges) : Feat := Cert.ReferenceIdeal.Read.val_main_v22 (F := Ideal) h e

/-- A rectified layer, 128 columns to 128. -/
def layer (h : Feat) (e : Edges) (Wl : (⟨S128x128, .f32⟩ : BufTy).Contents (Elt Ideal)) (b : (⟨S128, .f32⟩ : BufTy).Contents (Elt Ideal))
    (Wr : (⟨S128x128, .f32⟩ : BufTy).Contents (Elt Ideal)) : Feat :=
  relu (dense (agg h e) h Wl Wr fun o => b (ix1 o))

/-- The last layer, 128 columns to 64, not rectified. -/
def lastLayer (h : Feat) (e : Edges) (Wl : (⟨S128x64, .f32⟩ : BufTy).Contents (Elt Ideal)) (b : (⟨S64, .f32⟩ : BufTy).Contents (Elt Ideal))
    (Wr : (⟨S128x64, .f32⟩ : BufTy).Contents (Elt Ideal)) : (⟨S50000x64, .f32⟩ : BufTy).Contents (Elt Ideal) :=
  dense (agg h e) h Wl Wr fun o => b (ix1 o)

/-- The network: three layers over the same edge list. -/
def net (x : Feat) (e : Edges)
    (Wl0 : (⟨S128x128, .f32⟩ : BufTy).Contents (Elt Ideal)) (b0 : (⟨S128, .f32⟩ : BufTy).Contents (Elt Ideal)) (Wr0 : (⟨S128x128, .f32⟩ : BufTy).Contents (Elt Ideal))
    (Wl1 : (⟨S128x128, .f32⟩ : BufTy).Contents (Elt Ideal)) (b1 : (⟨S128, .f32⟩ : BufTy).Contents (Elt Ideal)) (Wr1 : (⟨S128x128, .f32⟩ : BufTy).Contents (Elt Ideal))
    (Wl2 : (⟨S128x64, .f32⟩ : BufTy).Contents (Elt Ideal)) (b2 : (⟨S64, .f32⟩ : BufTy).Contents (Elt Ideal)) (Wr2 : (⟨S128x64, .f32⟩ : BufTy).Contents (Elt Ideal)) :
    (⟨S50000x64, .f32⟩ : BufTy).Contents (Elt Ideal) :=
  lastLayer (layer (layer x e Wl0 b0 Wr0) e Wl1 b1 Wr1) e Wl2 b2 Wr2

end Cert.Net

end
-- ==== Proof.KernelRun.lean ====
/-
  The idealized kernel's run with its result array named.

  Every weakly fair execution of the three-region program terminates without a fault; in the final state the result
  array holds what the last region's write-backs leave — the last boundary's contents at that buffer, a fold of the three
  stretches of host operations and the three regions from the launch memory — and every argument array is as launched.
-/
import proofs.«171535_j16862041604204_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read against the last boundary's contents. -/
theorem run_named : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibPlainDot.lean ====
/-
  A matrix product with plain dimension numbers, read at one entry.

  For a product of an n × a matrix `L` by an a × b matrix `R` that contracts `L`'s second axis with `R`'s first and has no
  batch axis, the entry at row `p` and column `o` is Σ_{k < a} L[p,k] · R[k,o] at the ideal values — for the kernel's
  matmul into a zero accumulator and for the host's dot_general alike. The dimension record enters only through four
  coordinate facts (which coordinates of the operand indices come from the output index, and which from the contraction
  index), so the statement holds for any extents.
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {n a b : Nat} {φ₁ φ₂ : FTy}

/-- The sum over the one-axis contraction index, re-indexed by the axis' coordinate `k < a`, with the operand indices
    written out: row `p`, position `k` on the left; position `k`, column `o` on the right. -/
theorem sum_contr (d : DotDims ⟨2, ![n, a]⟩ ⟨2, ![a, b]⟩ ⟨2, ![n, b]⟩)
    (hr : d.contr.rank = 1) (hs : d.contr.size ⟨0, by omega⟩ = a)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (L : FVec Ideal ⟨2, ![n, a]⟩ φ₁) (R : FVec Ideal ⟨2, ![a, b]⟩ φ₂) (p : Fin n) (o : Fin b) :
    (∑ q : d.contr.Idx, L (d.lhsIdx (ix2 p o) q) * R (d.rhsIdx (ix2 p o) q))
      = ∑ k : Fin a, L (ix2 p k) * R (ix2 k o) := by
  rw [← Equiv.sum_comp (contrEquiv1 d a hr hs).symm]
  refine Finset.sum_congr rfl fun k _ => ?_
  have hk := contrEquiv1_symm_val d a hr hs k
  have el : d.lhsIdx (ix2 p o) ((contrEquiv1 d a hr hs).symm k) = ix2 p k := funext fun x => Fin.ext (by
    match x with
    | ⟨0, _⟩ => exact hl0 _ _
    | ⟨1, _⟩ => exact (hl1 _ _).trans hk)
  have er : d.rhsIdx (ix2 p o) ((contrEquiv1 d a hr hs).symm k) = ix2 k o := funext fun x => Fin.ext (by
    match x with
    | ⟨0, _⟩ => exact (hr0 _ _).trans hk
    | ⟨1, _⟩ => exact hr1 _ _)
  rw [el, er]

/-- The kernel's matmul into the zero accumulator at entry (p, o). -/
theorem matmul_zero_apply (d : DotDims ⟨2, ![n, a]⟩ ⟨2, ![a, b]⟩ ⟨2, ![n, b]⟩) (prec : Option ContractPrecision)
    (hr : d.contr.rank = 1) (hs : d.contr.size ⟨0, by omega⟩ = a)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (L : FVec Ideal ⟨2, ![n, a]⟩ φ₁) (R : FVec Ideal ⟨2, ![a, b]⟩ φ₂) (p : Fin n) (o : Fin b) :
    FloatOps.matmul d prec L R (constant (F := Ideal) ⟨2, ![n, b]⟩ .f32 0x00000000#32) (ix2 p o)
      = ∑ k : Fin a, L (ix2 p k) * R (ix2 k o) :=
  (Ideal.matmul_constant_zero_apply d prec L R (ix2 p o)).trans (sum_contr d hr hs hl0 hl1 hr0 hr1 L R p o)

/-- The host's dot_general at entry (p, o). -/
theorem dotGeneral_apply (d : DotDims ⟨2, ![n, a]⟩ ⟨2, ![a, b]⟩ ⟨2, ![n, b]⟩) (prec : Option ContractPrecision) (sched : HostSchedule)
    (hr : d.contr.rank = 1) (hs : d.contr.size ⟨0, by omega⟩ = a)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (L : FVec Ideal ⟨2, ![n, a]⟩ φ₁) (R : FVec Ideal ⟨2, ![a, b]⟩ φ₂) (p : Fin n) (o : Fin b) :
    FloatOps.dotGeneral d prec sched L R (ix2 p o) = ∑ k : Fin a, L (ix2 p k) * R (ix2 k o) :=
  (Ideal.dotGeneral_apply d prec sched L R (ix2 p o)).trans (sum_contr d hr hs hl0 hl1 hr0 hr1 L R p o)

end Cert.PlainDot

end
-- ==== Proof.KernelPayload.lean ====
/-
  What each of the three kernel bodies stores, read at one entry of its block.

  Every body loads a block of the aggregate and of the features (5000 rows each), the two weight matrices and the bias
  row, rounds the matrix operands to bf16 (the identity on the ideal values), multiplies each block by its weights into
  a zero accumulator, adds the two products, adds the bias row broadcast down the rows, and — in the first two layers —
  takes the maximum with zero. At row `p` and column `q` of the block that is the dense combine of `LayerSpec`, with the
  three summands grouped as (product + product) + bias; regrouping is `Layer.dense_regroup`.
-/
import proofs.«171535_j16862041604204_1_alg».proof.Proof.Gen.KernelIdeal.Skeleton
import proofs.«171535_j16862041604204_1_alg».proof.Proof.LayerSpec
import proofs.«171535_j16862041604204_1_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-! ## The two dimension records: rows × 128 by 128 × columns, contracting the 128 -/

local notation "d128" => dot_S5000x128_S128x128_S5000x128_1_0_0_1_n_n
local notation "d64" => dot_S5000x128_S128x64_S5000x64_1_0_0_1_n_n

theorem d128_l0 (j : S5000x128.Idx) (q : (d128).contr.Idx) : (((d128).lhsIdx j q) 0).val = (j 0).val := by
  unfold DotDims.lhsIdx
  rw [dif_neg (show ¬(0 : Fin S5000x128.rank) ∈ (d128).lhsBatch by decide), dif_pos (show (0 : Fin S5000x128.rank) ∈ (d128).lhsNonContracting by decide)]
  rfl
theorem d128_l1 (j : S5000x128.Idx) (q : (d128).contr.Idx) : (((d128).lhsIdx j q) 1).val = (q ⟨0, by decide⟩).val :=
  (d128).lhsIdx_val_of_single rfl j q
theorem d128_r0 (j : S5000x128.Idx) (q : (d128).contr.Idx) : (((d128).rhsIdx j q) 0).val = (q ⟨0, by decide⟩).val :=
  (d128).rhsIdx_val_of_single rfl j q
theorem d128_r1 (j : S5000x128.Idx) (q : (d128).contr.Idx) : (((d128).rhsIdx j q) 1).val = (j 1).val := by
  unfold DotDims.rhsIdx
  rw [dif_neg (show ¬(1 : Fin S128x128.rank) ∈ (d128).rhsBatch by decide), dif_pos (show (1 : Fin S128x128.rank) ∈ (d128).rhsNonContracting by decide)]
  rfl

theorem d64_l0 (j : S5000x64.Idx) (q : (d64).contr.Idx) : (((d64).lhsIdx j q) 0).val = (j 0).val := by
  unfold DotDims.lhsIdx
  rw [dif_neg (show ¬(0 : Fin S5000x128.rank) ∈ (d64).lhsBatch by decide), dif_pos (show (0 : Fin S5000x128.rank) ∈ (d64).lhsNonContracting by decide)]
  rfl
theorem d64_l1 (j : S5000x64.Idx) (q : (d64).contr.Idx) : (((d64).lhsIdx j q) 1).val = (q ⟨0, by decide⟩).val :=
  (d64).lhsIdx_val_of_single rfl j q
theorem d64_r0 (j : S5000x64.Idx) (q : (d64).contr.Idx) : (((d64).rhsIdx j q) 0).val = (q ⟨0, by decide⟩).val :=
  (d64).rhsIdx_val_of_single rfl j q
theorem d64_r1 (j : S5000x64.Idx) (q : (d64).contr.Idx) : (((d64).rhsIdx j q) 1).val = (j 1).val := by
  unfold DotDims.rhsIdx
  rw [dif_neg (show ¬(1 : Fin S128x64.rank) ∈ (d64).rhsBatch by decide), dif_pos (show (1 : Fin S128x64.rank) ∈ (d64).rhsNonContracting by decide)]
  rfl

/-- A block times a 128 × 128 weight matrix, into zero, at entry (p, q). -/
theorem mm128 (L : FVec Ideal S5000x128 .bf16) (R : FVec Ideal S128x128 .bf16) (p : Fin 5000) (q : Fin 128) :
    matmul d128 none L R (constant (F := Ideal) S5000x128 .f32 0x00000000#32) (ix2 p q) = ∑ k : Fin 128, L (ix2 p k) * R (ix2 k q) :=
  Cert.PlainDot.matmul_zero_apply d128 none rfl rfl d128_l0 d128_l1 d128_r0 d128_r1 L R p q

/-- A block times a 128 × 64 weight matrix, into zero, at entry (p, q). -/
theorem mm64 (L : FVec Ideal S5000x128 .bf16) (R : FVec Ideal S128x64 .bf16) (p : Fin 5000) (q : Fin 64) :
    matmul d64 none L R (constant (F := Ideal) S5000x64 .f32 0x00000000#32) (ix2 p q) = ∑ k : Fin 128, L (ix2 p k) * R (ix2 k q) :=
  Cert.PlainDot.matmul_zero_apply d64 none rfl rfl d64_l0 d64_l1 d64_r0 d64_r1 L R p q

/-! ## The bias row broadcast down the rows -/

theorem bias128 (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_apply v broadcasts_S1x128_S5000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

theorem bias64 (v : Vec Ideal S1x64 .f32) (p : Fin 5000) (q : Fin 64) :
    broadcastTo S5000x64 (shapeCast S1x64 v shapeCasts_S1x64_S1x64) broadcasts_S1x64_S5000x64 (ix2 p q)
      = v (ix2 (0 : Fin 1) q) := by
  rw [shapeCast_self]
  exact broadcastTo_apply v broadcasts_S1x64_S5000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-! ## The three stored values at an entry -/

/-- Layer 0's stored block at (p, q): the rectified dense combine of the loaded blocks. -/
theorem pay0_apply (v0 v3 : Vec Ideal S5000x128 .f32) (v5 v7 : Vec Ideal S128x128 .f32) (v12 : Vec Ideal S1x128 .f32)
    (p : Fin 5000) (q : Fin 128) :
    k0_pay1 (F := Ideal) v0 v3 v5 v7 v12 (ix2 p q)
      = Layer.relu (Layer.dense v0 v3 v5 v7 fun o => v12 (ix2 (0 : Fin 1) o)) (ix2 p q) := by
  unfold k0_pay1 Layer.relu
  rw [maximumf_apply, addf_apply, addf_apply, mm128, mm128, bias128, shapeCast_self, Layer.dense_apply, ← Layer.dense_regroup]
  rfl

/-- Layer 1's stored block at (p, q). -/
theorem pay1_apply (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q)
      = Layer.relu (Layer.dense v0 v3 v6 v8 fun o => v13 (ix2 (0 : Fin 1) o)) (ix2 p q) := by
  unfold k1_pay1 Layer.relu
  rw [maximumf_apply, addf_apply, addf_apply, mm128, mm128, bias128, shapeCast_self, shapeCast_self, Layer.dense_apply, ← Layer.dense_regroup]
  rfl

/-- Layer 2's stored block at (p, q): the dense combine, not rectified. -/
theorem pay2_apply (v0 v3 : Vec Ideal S5000x128 .f32) (v6 v8 : Vec Ideal S128x64 .f32) (v13 : Vec Ideal S1x64 .f32)
    (p : Fin 5000) (q : Fin 64) :
    k2_pay1 (F := Ideal) v0 v3 v6 v8 v13 (ix2 p q)
      = Layer.dense v0 v3 v6 v8 (fun o => v13 (ix2 (0 : Fin 1) o)) (ix2 p q) := by
  unfold k2_pay1
  rw [addf_apply, addf_apply, mm64, mm64, bias64, shapeCast_self, shapeCast_self, Layer.dense_apply, ← Layer.dense_regroup]
  rfl

end Cert.KernelIdeal.Payload

end
-- ==== Proof.LayerCongr.lean ====
/-
  Two congruences for reading a block of rows as part of a tall array.

  An entry of the dense combine at index `i` reads row `i 0` of the aggregate and of the features, column `i 1` of the
  weights and the bias at `i 1`; the rectifier reads its argument at the one index. So an entry computed from a block of
  rows equals the tall array's entry at the block's position, once the rows and columns read are shown to be the same.
-/
import proofs.«171535_j16862041604204_1_alg».proof.Proof.LayerSpec

noncomputable section

namespace Cert.Layer

open Idealize.ShloMosaic Idealize.ShloMosaic.ValueIdx

theorem dense_congr {N N' K D : Nat} {A X : (⟨2, ![N, K]⟩ : Shape).Idx → EReal} {A' X' : (⟨2, ![N', K]⟩ : Shape).Idx → EReal}
    {Wl Wr Wl' Wr' : (⟨2, ![K, D]⟩ : Shape).Idx → EReal} {b b' : Fin D → EReal}
    {i : (⟨2, ![N, D]⟩ : Shape).Idx} {i' : (⟨2, ![N', D]⟩ : Shape).Idx}
    (hA : ∀ k, A (ix2 (i 0) k) = A' (ix2 (i' 0) k)) (hX : ∀ k, X (ix2 (i 0) k) = X' (ix2 (i' 0) k))
    (hWl : ∀ k, Wl (ix2 k (i 1)) = Wl' (ix2 k (i' 1))) (hWr : ∀ k, Wr (ix2 k (i 1)) = Wr' (ix2 k (i' 1)))
    (hb : b (i 1) = b' (i' 1)) :
    dense A X Wl Wr b i = dense A' X' Wl' Wr' b' i' :=
  denseAt_congr hA hX hWl hWr hb

theorem relu_congr {s s' : Shape} {y : s.Idx → EReal} {y' : s'.Idx → EReal} {i : s.Idx} {i' : s'.Idx}
    (h : y i = y' i') : relu y i = relu y' i' := by
  unfold relu
  rw [h]

end Cert.Layer

end
-- ==== Proof.KernelRegion0.lean ====
/-
  The array region 0 leaves, as one function of the arrays it finds.

  The region runs the dense-combine body at ten grid points; point `t` reads rows 5000·t … 5000·t + 4999 of the aggregate
  and of the features, the whole weight matrices and the bias row, and writes the same rows of the result. Since an
  entry of the dense combine reads only its own row of the two tall operands, what point `t` writes is rows
  5000·t … of ONE function of the whole arrays; the ten blocks tile the 50000 rows, so the result array ends holding that
  function everywhere. Stated for any contents `V` of the buffers at the region's entry.
-/
import proofs.«171535_j16862041604204_1_alg».proof.Proof.Gen.KernelIdeal.Frame
import proofs.«171535_j16862041604204_1_alg».proof.Proof.KernelPayload
import proofs.«171535_j16862041604204_1_alg».proof.Proof.LayerCongr
import Idealize.ShloMosaic.Lib.Pipeline.Value
import Idealize.ShloMosaic.Lib.ValueIdx

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the result array holds after the region: the rectified dense combine of the aggregate array, the feature array, the
    two weight arrays and the bias row, as the region finds them. -/
abbrev G (c : Dev nD) : S50000x128.Idx → EReal :=
  relu (dense (V c main_v22) (V c main_arg0) (V c main_arg2) (V c main_arg4) fun o => V c main_v23 (ix2 (0 : Fin 1) o))

/-- The index maps over the grid: the two tall operands and the result move together, one block of rows per point;
    the weights and the bias stay at block 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (Payload.pay0_apply _ _ _ _ _ p q).trans ?_
  show _ = G V c (((cfg0.win 5).blk t).view.emb (ix2 p q))
  refine relu_congr ?_
  refine dense_congr (fun k => ?_) (fun k => ?_) (fun k => ?_) (fun k => ?_) ?_
  · show V c main_v22 (((cfg0.win 0).blk t).view.emb (ix2 p k)) = V c main_v22 (ix2 ((((cfg0.win 5).blk t).view.emb (ix2 p q)) 0) k)
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg0 (((cfg0.win 1).blk t).view.emb (ix2 p k)) = V c main_arg0 (ix2 ((((cfg0.win 5).blk t).view.emb (ix2 p q)) 0) k)
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_arg2 (((cfg0.win 2).blk t).view.emb (ix2 k q)) = V c main_arg2 (ix2 k ((((cfg0.win 5).blk t).view.emb (ix2 p q)) 1))
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg4 (((cfg0.win 4).blk t).view.emb (ix2 k q)) = V c main_arg4 (ix2 k ((((cfg0.win 5).blk t).view.emb (ix2 p q)) 1))
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  · show V c main_v23 (((cfg0.win 3).blk t).view.emb (ix2 (0 : Fin 1) q)) = V c main_v23 (ix2 (0 : Fin 1) ((((cfg0.win 5).blk t).view.emb (ix2 p q)) 1))
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega

/-- An index of the result array lies in point `t`'s block iff each coordinate lies in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row `r` lies in the block of point `r / 5000`: the ten blocks tile the 50000 rows. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨-, -, -, -, -, -, -, -, -, -, e50, e51⟩ := idx_facts (⟨(i 0).val / 5000, hlt⟩ : Fin cfg0.N)
  have e50' : win0_5.index (⟨(i 0).val / 5000, hlt⟩ : Fin cfg0.N) (0 : Fin 2) = (i 0).val / 5000 := e50
  refine ⟨⟨(i 0).val / 5000, hlt⟩, flush0_5 _, ?_⟩
  rw [mem_blk]
  intro a
  match a with
  | ⟨0, _⟩ =>
    show win0_5.index (⟨(i 0).val / 5000, hlt⟩ : Fin cfg0.N) (0 : Fin 2) * 5000 ≤ (i 0).val ∧ (i 0).val < win0_5.index (⟨(i 0).val / 5000, hlt⟩ : Fin cfg0.N) (0 : Fin 2) * 5000 + 5000
    rw [e50']; omega
  | ⟨1, _⟩ =>
    show win0_5.index (⟨(i 0).val / 5000, hlt⟩ : Fin cfg0.N) (1 : Fin 2) * 128 ≤ (i 1).val ∧ (i 1).val < win0_5.index (⟨(i 0).val / 5000, hlt⟩ : Fin cfg0.N) (1 : Fin 2) * 128 + 128
    rw [e51]; omega

/-- The result array after the region. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.KernelRegion1.lean ====
/-
  The array region 1 leaves, as one function of the arrays it finds.

  The region runs the dense-combine body at ten grid points; point `t` reads rows 5000·t … 5000·t + 4999 of the aggregate
  and of the features, the whole weight matrices and the bias row, and writes the same rows of the result. Since an
  entry of the dense combine reads only its own row of the two tall operands, what point `t` writes is rows
  5000·t … of ONE function of the whole arrays; the ten blocks tile the 50000 rows, so the result array ends holding that
  function everywhere. Stated for any contents `V` of the buffers at the region's entry.
-/
import proofs.«171535_j16862041604204_1_alg».proof.Proof.Gen.KernelIdeal.Frame
import proofs.«171535_j16862041604204_1_alg».proof.Proof.KernelPayload
import proofs.«171535_j16862041604204_1_alg».proof.Proof.LayerCongr
import Idealize.ShloMosaic.Lib.Pipeline.Value
import Idealize.ShloMosaic.Lib.ValueIdx

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the result array holds after the region: the rectified dense combine of the aggregate array, the feature array, the
    two weight arrays and the bias row, as the region finds them. -/
abbrev G (c : Dev nD) : S50000x128.Idx → EReal :=
  relu (dense (V c main_v43) (V c main_v24) (V c main_arg5) (V c main_arg7) fun o => V c main_v44 (ix2 (0 : Fin 1) o))

/-- The index maps over the grid: the two tall operands and the result move together, one block of rows per point;
    the weights and the bias stay at block 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (Payload.pay1_apply _ _ _ _ _ p q).trans ?_
  show _ = G V c (((cfg1.win 5).blk t).view.emb (ix2 p q))
  refine relu_congr ?_
  refine dense_congr (fun k => ?_) (fun k => ?_) (fun k => ?_) (fun k => ?_) ?_
  · show V c main_v43 (((cfg1.win 0).blk t).view.emb (ix2 p k)) = V c main_v43 (ix2 ((((cfg1.win 5).blk t).view.emb (ix2 p q)) 0) k)
    refine congrArg (V c main_v43) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v24 (((cfg1.win 1).blk t).view.emb (ix2 p k)) = V c main_v24 (ix2 ((((cfg1.win 5).blk t).view.emb (ix2 p q)) 0) k)
    refine congrArg (V c main_v24) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_arg5 (((cfg1.win 2).blk t).view.emb (ix2 k q)) = V c main_arg5 (ix2 k ((((cfg1.win 5).blk t).view.emb (ix2 p q)) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_arg7 (((cfg1.win 4).blk t).view.emb (ix2 k q)) = V c main_arg7 (ix2 k ((((cfg1.win 5).blk t).view.emb (ix2 p q)) 1))
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  · show V c main_v44 (((cfg1.win 3).blk t).view.emb (ix2 (0 : Fin 1) q)) = V c main_v44 (ix2 (0 : Fin 1) ((((cfg1.win 5).blk t).view.emb (ix2 p q)) 1))
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega

/-- An index of the result array lies in point `t`'s block iff each coordinate lies in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Row `r` lies in the block of point `r / 5000`: the ten blocks tile the 50000 rows. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨-, -, -, -, -, -, -, -, -, -, e50, e51⟩ := idx_facts (⟨(i 0).val / 5000, hlt⟩ : Fin cfg1.N)
  have e50' : win1_5.index (⟨(i 0).val / 5000, hlt⟩ : Fin cfg1.N) (0 : Fin 2) = (i 0).val / 5000 := e50
  refine ⟨⟨(i 0).val / 5000, hlt⟩, flush1_5 _, ?_⟩
  rw [mem_blk]
  intro a
  match a with
  | ⟨0, _⟩ =>
    show win1_5.index (⟨(i 0).val / 5000, hlt⟩ : Fin cfg1.N) (0 : Fin 2) * 5000 ≤ (i 0).val ∧ (i 0).val < win1_5.index (⟨(i 0).val / 5000, hlt⟩ : Fin cfg1.N) (0 : Fin 2) * 5000 + 5000
    rw [e50']; omega
  | ⟨1, _⟩ =>
    show win1_5.index (⟨(i 0).val / 5000, hlt⟩ : Fin cfg1.N) (1 : Fin 2) * 128 ≤ (i 1).val ∧ (i 1).val < win1_5.index (⟨(i 0).val / 5000, hlt⟩ : Fin cfg1.N) (1 : Fin 2) * 128 + 128
    rw [e51]; omega

/-- The result array after the region. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KernelRegion2.lean ====
/-
  The array region 2 leaves, as one function of the arrays it finds.

  The region runs the dense-combine body at ten grid points; point `t` reads rows 5000·t … 5000·t + 4999 of the aggregate
  and of the features, the whole weight matrices and the bias row, and writes the same rows of the result. Since an
  entry of the dense combine reads only its own row of the two tall operands, what point `t` writes is rows
  5000·t … of ONE function of the whole arrays; the ten blocks tile the 50000 rows, so the result array ends holding that
  function everywhere. Stated for any contents `V` of the buffers at the region's entry.
-/
import proofs.«171535_j16862041604204_1_alg».proof.Proof.Gen.KernelIdeal.Frame
import proofs.«171535_j16862041604204_1_alg».proof.Proof.KernelPayload
import proofs.«171535_j16862041604204_1_alg».proof.Proof.LayerCongr
import Idealize.ShloMosaic.Lib.Pipeline.Value
import Idealize.ShloMosaic.Lib.ValueIdx

set_option maxRecDepth 16384

noncomputable section

namespace Cert.KernelIdeal.Region2

open Idealize.ShloMosaic Idealize.ShloMosaic.ValueIdx Idealize.ShloMosaic.TcCoe Idealize.SL.Sem
open Cert.KernelIdeal Cert.KernelIdeal.Gen Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the result array holds after the region: the dense combine of the aggregate array, the feature array, the
    two weight arrays and the bias row, as the region finds them. -/
abbrev G (c : Dev nD) : S50000x64.Idx → EReal :=
  (dense (V c main_v64) (V c main_v45) (V c main_arg8) (V c main_arg10) fun o => V c main_v65 (ix2 (0 : Fin 1) o))

/-- The index maps over the grid: the two tall operands and the result move together, one block of rows per point;
    the weights and the bias stay at block 0. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  refine (Payload.pay2_apply _ _ _ _ _ p q).trans ?_
  show _ = G V c (((cfg2.win 5).blk t).view.emb (ix2 p q))
  refine dense_congr (fun k => ?_) (fun k => ?_) (fun k => ?_) (fun k => ?_) ?_
  · show V c main_v64 (((cfg2.win 0).blk t).view.emb (ix2 p k)) = V c main_v64 (ix2 ((((cfg2.win 5).blk t).view.emb (ix2 p q)) 0) k)
    refine congrArg (V c main_v64) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · show V c main_v45 (((cfg2.win 1).blk t).view.emb (ix2 p k)) = V c main_v45 (ix2 ((((cfg2.win 5).blk t).view.emb (ix2 p q)) 0) k)
    refine congrArg (V c main_v45) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · show V c main_arg8 (((cfg2.win 2).blk t).view.emb (ix2 k q)) = V c main_arg8 (ix2 k ((((cfg2.win 5).blk t).view.emb (ix2 p q)) 1))
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 64 + 1 * q.val = win2_5.index t (1 : Fin 2) * 64 + 1 * q.val; omega
  · show V c main_arg10 (((cfg2.win 4).blk t).view.emb (ix2 k q)) = V c main_arg10 (ix2 k ((((cfg2.win 5).blk t).view.emb (ix2 p q)) 1))
    refine congrArg (V c main_arg10) (funext fun a => Fin.ext ?_)
    match a with
    | ⟨0, _⟩ => show win2_4.index t (0 : Fin 2) * 128 + 1 * k.val = k.val; omega
    | ⟨1, _⟩ => show win2_4.index t (1 : Fin 2) * 64 + 1 * q.val = win2_5.index t (1 : Fin 2) * 64 + 1 * q.val; omega
  · show V c main_v65 (((cfg2.win 3).blk t).view.emb (ix2 (0 : Fin 1) q)) = V c main_v65 (ix2 (0 : Fin 1) ((((cfg2.win 5).blk t).view.emb (ix2 p q)) 1))
    refine congrArg (V c main_v65) (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega

/-- An index of the result array lies in point `t`'s block iff each coordinate lies in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v66).slice (win2_5.rect t)).set ↔ _
  rw [View.set_slice_whole, Rect.mem_set_unit]
  exact Iff.rfl

/-- Row `r` lies in the block of point `r / 5000`: the ten blocks tile the 50000 rows. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  have hlt : (i 0).val / 5000 < grid2.N := by rw [hN]; omega
  obtain ⟨-, -, -, -, -, -, -, -, -, -, e50, e51⟩ := idx_facts (⟨(i 0).val / 5000, hlt⟩ : Fin cfg2.N)
  have e50' : win2_5.index (⟨(i 0).val / 5000, hlt⟩ : Fin cfg2.N) (0 : Fin 2) = (i 0).val / 5000 := e50
  refine ⟨⟨(i 0).val / 5000, hlt⟩, flush2_5 _, ?_⟩
  rw [mem_blk]
  intro a
  match a with
  | ⟨0, _⟩ =>
    show win2_5.index (⟨(i 0).val / 5000, hlt⟩ : Fin cfg2.N) (0 : Fin 2) * 5000 ≤ (i 0).val ∧ (i 0).val < win2_5.index (⟨(i 0).val / 5000, hlt⟩ : Fin cfg2.N) (0 : Fin 2) * 5000 + 5000
    rw [e50']; omega
  | ⟨1, _⟩ =>
    show win2_5.index (⟨(i 0).val / 5000, hlt⟩ : Fin cfg2.N) (1 : Fin 2) * 64 ≤ (i 1).val ∧ (i 1).val < win2_5.index (⟨(i 0).val / 5000, hlt⟩ : Fin cfg2.N) (1 : Fin 2) * 64 + 64
    rw [e51]; omega

/-- The result array after the region. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.KernelHost.lean ====
/-
  The three stretches of host operations of the idealized kernel, read at the buffers the regions use.

  Before each region the host computes the mean aggregation of the current features over the edge list — the same
  operations, in the same order, as the reference's — and views the layer's bias vector as a one-row matrix. The first
  stretch also cuts the edge list into its source row and its target row, which the later stretches read again. Every
  other buffer a region reads (the features, the weights) is written by no host operation of the stretch. All facts are
  stated for an arbitrary valuation `W` of the buffers at the stretch's start.
-/
import proofs.«171535_j16862041604204_1_alg».proof.Proof.Gen.KernelIdeal.Launch
import proofs.«171535_j16862041604204_1_alg».proof.Proof.NetSpec
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen

variable (W : Valuation τ sig (Elt Ideal))

/-! ## The first stretch: from the launch memory -/

/-- The edges' source nodes: row 0 of the edge list. -/
theorem src0 : after (hostOps0 (F := Ideal)) W (Proc.devRef .tc main_v1)
    = Cert.ReferenceIdeal.Read.val_main_v1 (F := Ideal) (W (Proc.devRef .tc main_arg1)) := by
  after_results_simp <;> rfl

/-- The edges' target nodes: row 1 of the edge list. -/
theorem dst0 : after (hostOps0 (F := Ideal)) W (Proc.devRef .tc main_v3)
    = Cert.ReferenceIdeal.Read.val_main_v3 (F := Ideal) (W (Proc.devRef .tc main_arg1)) := by
  after_results_simp <;> rfl

/-- The aggregate of the input features. -/
theorem agg0 : after (hostOps0 (F := Ideal)) W (Proc.devRef .tc main_v22)
    = Cert.Net.agg (W (Proc.devRef .tc main_arg0)) (W (Proc.devRef .tc main_arg1)) := by
  after_results_simp <;> rfl

/-- The first bias vector as a one-row matrix. -/
theorem bias0 : after (hostOps0 (F := Ideal)) W (Proc.devRef .tc main_v23)
    = shapeCast S1x128 (W (Proc.devRef .tc main_arg3)) shapeCasts_S128_S1x128 := by
  after_results_simp <;> rfl

theorem keep0_main_arg0 : after (hostOps0 (F := Ideal)) W (Proc.devRef .tc main_arg0) = W (Proc.devRef .tc main_arg0) := by
  after_results_simp <;> rfl

theorem keep0_main_arg2 : after (hostOps0 (F := Ideal)) W (Proc.devRef .tc main_arg2) = W (Proc.devRef .tc main_arg2) := by
  after_results_simp <;> rfl

theorem keep0_main_arg4 : after (hostOps0 (F := Ideal)) W (Proc.devRef .tc main_arg4) = W (Proc.devRef .tc main_arg4) := by
  after_results_simp <;> rfl

theorem keep0_main_arg5 : after (hostOps0 (F := Ideal)) W (Proc.devRef .tc main_arg5) = W (Proc.devRef .tc main_arg5) := by
  after_results_simp <;> rfl

theorem keep0_main_arg6 : after (hostOps0 (F := Ideal)) W (Proc.devRef .tc main_arg6) = W (Proc.devRef .tc main_arg6) := by
  after_results_simp <;> rfl

theorem keep0_main_arg7 : after (hostOps0 (F := Ideal)) W (Proc.devRef .tc main_arg7) = W (Proc.devRef .tc main_arg7) := by
  after_results_simp <;> rfl

theorem keep0_main_arg8 : after (hostOps0 (F := Ideal)) W (Proc.devRef .tc main_arg8) = W (Proc.devRef .tc main_arg8) := by
  after_results_simp <;> rfl

theorem keep0_main_arg9 : after (hostOps0 (F := Ideal)) W (Proc.devRef .tc main_arg9) = W (Proc.devRef .tc main_arg9) := by
  after_results_simp <;> rfl

theorem keep0_main_arg10 : after (hostOps0 (F := Ideal)) W (Proc.devRef .tc main_arg10) = W (Proc.devRef .tc main_arg10) := by
  after_results_simp <;> rfl

/-! ## The second stretch: from the contents region 0 leaves -/

/-- The aggregate of the first layer's output, over the same edge list `e`. -/
theorem agg1 (e : Cert.Net.Edges)
    (hs : W (Proc.devRef .tc main_v1) = Cert.ReferenceIdeal.Read.val_main_v1 (F := Ideal) e)
    (hd : W (Proc.devRef .tc main_v3) = Cert.ReferenceIdeal.Read.val_main_v3 (F := Ideal) e) :
    after (hostOps1 (F := Ideal)) W (Proc.devRef .tc main_v43) = Cert.Net.agg (W (Proc.devRef .tc main_v24)) e := by
  after_results_simp
  rw [hs, hd]
  rfl

/-- The second bias vector as a one-row matrix. -/
theorem bias1 : after (hostOps1 (F := Ideal)) W (Proc.devRef .tc main_v44)
    = shapeCast S1x128 (W (Proc.devRef .tc main_arg6)) shapeCasts_S128_S1x128 := by
  after_results_simp <;> rfl

theorem keep1_main_v24 : after (hostOps1 (F := Ideal)) W (Proc.devRef .tc main_v24) = W (Proc.devRef .tc main_v24) := by
  after_results_simp <;> rfl

theorem keep1_main_arg5 : after (hostOps1 (F := Ideal)) W (Proc.devRef .tc main_arg5) = W (Proc.devRef .tc main_arg5) := by
  after_results_simp <;> rfl

theorem keep1_main_arg7 : after (hostOps1 (F := Ideal)) W (Proc.devRef .tc main_arg7) = W (Proc.devRef .tc main_arg7) := by
  after_results_simp <;> rfl

theorem keep1_main_v1 : after (hostOps1 (F := Ideal)) W (Proc.devRef .tc main_v1) = W (Proc.devRef .tc main_v1) := by
  after_results_simp <;> rfl

theorem keep1_main_v3 : after (hostOps1 (F := Ideal)) W (Proc.devRef .tc main_v3) = W (Proc.devRef .tc main_v3) := by
  after_results_simp <;> rfl

theorem keep1_main_arg8 : after (hostOps1 (F := Ideal)) W (Proc.devRef .tc main_arg8) = W (Proc.devRef .tc main_arg8) := by
  after_results_simp <;> rfl

theorem keep1_main_arg9 : after (hostOps1 (F := Ideal)) W (Proc.devRef .tc main_arg9) = W (Proc.devRef .tc main_arg9) := by
  after_results_simp <;> rfl

theorem keep1_main_arg10 : after (hostOps1 (F := Ideal)) W (Proc.devRef .tc main_arg10) = W (Proc.devRef .tc main_arg10) := by
  after_results_simp <;> rfl

/-! ## The third stretch: from the contents region 1 leaves -/

/-- The aggregate of the second layer's output, over the same edge list `e`. -/
theorem agg2 (e : Cert.Net.Edges)
    (hs : W (Proc.devRef .tc main_v1) = Cert.ReferenceIdeal.Read.val_main_v1 (F := Ideal) e)
    (hd : W (Proc.devRef .tc main_v3) = Cert.ReferenceIdeal.Read.val_main_v3 (F := Ideal) e) :
    after (hostOps2 (F := Ideal)) W (Proc.devRef .tc main_v64) = Cert.Net.agg (W (Proc.devRef .tc main_v45)) e := by
  after_results_simp
  rw [hs, hd]
  rfl

/-- The third bias vector as a one-row matrix. -/
theorem bias2 : after (hostOps2 (F := Ideal)) W (Proc.devRef .tc main_v65)
    = shapeCast S1x64 (W (Proc.devRef .tc main_arg9)) shapeCasts_S64_S1x64 := by
  after_results_simp <;> rfl

theorem keep2_main_v45 : after (hostOps2 (F := Ideal)) W (Proc.devRef .tc main_v45) = W (Proc.devRef .tc main_v45) := by
  after_results_simp <;> rfl

theorem keep2_main_arg8 : after (hostOps2 (F := Ideal)) W (Proc.devRef .tc main_arg8) = W (Proc.devRef .tc main_arg8) := by
  after_results_simp <;> rfl

theorem keep2_main_arg10 : after (hostOps2 (F := Ideal)) W (Proc.devRef .tc main_arg10) = W (Proc.devRef .tc main_arg10) := by
  after_results_simp <;> rfl

end Cert.KernelIdeal.HostStretch

end
-- ==== Proof.KernelFold.lean ====
/-
  The idealized kernel's result array as the network of the launch arrays.

  The buffer contents at the six boundaries of the program — after each stretch of host operations and after each
  region — are a fold from the launch memory. Read at the buffers that matter, the fold says:

    * before region 0 the aggregate buffer holds `agg x e`, the bias buffer the first bias as a one-row matrix, and the
      features and weights are as launched; region 0 leaves layer 1's output `H1`;
    * the second stretch aggregates `H1` over the same edge list (its source and target rows were cut out by the first
      stretch and nothing since has written them); region 1 leaves layer 2's output `H2`;
    * the third stretch aggregates `H2`; region 2 leaves the last layer of `H2`: the network.

  Each region's result is the dense combine of what it finds (the three region modules); each stretch's reads are the
  host-stretch facts; a buffer that is no window of a region keeps its contents across it.
-/
import proofs.«171535_j16862041604204_1_alg».proof.Proof.Gen.KernelIdeal.Frame
import proofs.«171535_j16862041604204_1_alg».proof.Proof.KernelRegion0
import proofs.«171535_j16862041604204_1_alg».proof.Proof.KernelRegion1
import proofs.«171535_j16862041604204_1_alg».proof.Proof.KernelRegion2
import proofs.«171535_j16862041604204_1_alg».proof.Proof.KernelHost
import proofs.«171535_j16862041604204_1_alg».proof.Proof.NetSpec
import Idealize.ShloMosaic.Lib.Pipeline.Value
import Idealize.ShloMosaic.Lib.ValueIdx
import Idealize.ShloMosaic.Lib.ValueLayout

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Layer Cert.KernelIdeal.HostStretch
open Cert.ReferenceIdeal.Read (val_main_v1 val_main_v3)

/-! ## A layer from its five operands -/

/-- A rectified dense combine whose operands are the aggregate of `h`, `h` itself, the weights and the bias as a one-row
    matrix is the layer of `h`. -/
theorem layer_of {A X : S50000x128.Idx → EReal} {Wl Wr : S128x128.Idx → EReal} {bv : S1x128.Idx → EReal}
    {h : Cert.Net.Feat} {e : Cert.Net.Edges} {wl wr : (⟨Cert.ReferenceIdeal.S128x128, .f32⟩ : BufTy).Contents (Elt Ideal)}
    {b : (⟨Cert.ReferenceIdeal.S128, .f32⟩ : BufTy).Contents (Elt Ideal)}
    (hA : A = Cert.Net.agg h e) (hX : X = h) (hWl : Wl = wl) (hWr : Wr = wr) (hb : ∀ o : Fin 128, bv (ix2 (0 : Fin 1) o) = b (ix1 o)) :
    relu (dense A X Wl Wr fun o => bv (ix2 (0 : Fin 1) o)) = Cert.Net.layer h e wl b wr := by
  subst hA hX hWl hWr
  unfold Cert.Net.layer
  rw [funext hb]

/-- The same for the last layer: 64 columns, not rectified. -/
theorem lastLayer_of {A X : S50000x128.Idx → EReal} {Wl Wr : S128x64.Idx → EReal} {bv : S1x64.Idx → EReal}
    {h : Cert.Net.Feat} {e : Cert.Net.Edges} {wl wr : (⟨Cert.ReferenceIdeal.S128x64, .f32⟩ : BufTy).Contents (Elt Ideal)}
    {b : (⟨Cert.ReferenceIdeal.S64, .f32⟩ : BufTy).Contents (Elt Ideal)}
    (hA : A = Cert.Net.agg h e) (hX : X = h) (hWl : Wl = wl) (hWr : Wr = wr) (hb : ∀ o : Fin 64, bv (ix2 (0 : Fin 1) o) = b (ix1 o)) :
    dense A X Wl Wr (fun o => bv (ix2 (0 : Fin 1) o)) = Cert.Net.lastLayer h e wl b wr := by
  subst hA hX hWl hWr
  unfold Cert.Net.lastLayer
  rw [funext hb]

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## Layer 1 -/

theorem V1_agg : V1 m ρ c main_v22 = Cert.Net.agg (arg m c main_arg0) (arg m c main_arg1) := agg0 (W0 m ρ c)
theorem V1_x : V1 m ρ c main_arg0 = arg m c main_arg0 := keep0_main_arg0 (W0 m ρ c)
theorem V1_wl : V1 m ρ c main_arg2 = arg m c main_arg2 := keep0_main_arg2 (W0 m ρ c)
theorem V1_wr : V1 m ρ c main_arg4 = arg m c main_arg4 := keep0_main_arg4 (W0 m ρ c)
theorem V1_bias (o : Fin 128) : V1 m ρ c main_v23 (ix2 (0 : Fin 1) o) = arg m c main_arg3 (ix1 o) := by
  rw [show V1 m ρ c main_v23 = shapeCast S1x128 (arg m c main_arg3) shapeCasts_S128_S1x128 from bias0 (W0 m ρ c)]
  exact shapeCast_a_1a_apply _ _ 0 o

/-- Layer 1's output. -/
abbrev H1 : Cert.Net.Feat := Cert.Net.layer (arg m c main_arg0) (arg m c main_arg1) (arg m c main_arg2) (arg m c main_arg3) (arg m c main_arg4)

/-- Region 0 leaves layer 1's output in its result array. -/
theorem W2_out : W2 m ρ c (Proc.devRef .tc main_v24) = H1 m c :=
  (W2_arr m ρ c 5).trans ((Region0.final (V1 m ρ) c).trans
    (layer_of (A := V1 m ρ c main_v22) (X := V1 m ρ c main_arg0) (Wl := V1 m ρ c main_arg2) (Wr := V1 m ρ c main_arg4) (bv := V1 m ρ c main_v23)
      (V1_agg m ρ c) (V1_x m ρ c) (V1_wl m ρ c) (V1_wr m ρ c) (V1_bias m ρ c)))

/-! ## Layer 2 -/

theorem W2_src : W2 m ρ c (Proc.devRef .tc main_v1) = val_main_v1 (F := Ideal) (arg m c main_arg1) :=
  (W2_of_ne m ρ c main_v1 (by decide)).trans (src0 (W0 m ρ c))
theorem W2_dst : W2 m ρ c (Proc.devRef .tc main_v3) = val_main_v3 (F := Ideal) (arg m c main_arg1) :=
  (W2_of_ne m ρ c main_v3 (by decide)).trans (dst0 (W0 m ρ c))

theorem V3_agg : V3 m ρ c main_v43 = Cert.Net.agg (H1 m c) (arg m c main_arg1) :=
  (agg1 (W2 m ρ c) (arg m c main_arg1) (W2_src m ρ c) (W2_dst m ρ c)).trans (congrArg (fun h => Cert.Net.agg h (arg m c main_arg1)) (W2_out m ρ c))
theorem V3_x : V3 m ρ c main_v24 = H1 m c := (keep1_main_v24 (W2 m ρ c)).trans (W2_out m ρ c)
theorem V3_wl : V3 m ρ c main_arg5 = arg m c main_arg5 :=
  (keep1_main_arg5 (W2 m ρ c)).trans ((W2_of_ne m ρ c main_arg5 (by decide)).trans (keep0_main_arg5 (W0 m ρ c)))
theorem V3_wr : V3 m ρ c main_arg7 = arg m c main_arg7 :=
  (keep1_main_arg7 (W2 m ρ c)).trans ((W2_of_ne m ρ c main_arg7 (by decide)).trans (keep0_main_arg7 (W0 m ρ c)))
theorem W2_b1 : W2 m ρ c (Proc.devRef .tc main_arg6) = arg m c main_arg6 :=
  (W2_of_ne m ρ c main_arg6 (by decide)).trans (keep0_main_arg6 (W0 m ρ c))
theorem V3_bias (o : Fin 128) : V3 m ρ c main_v44 (ix2 (0 : Fin 1) o) = arg m c main_arg6 (ix1 o) := by
  rw [show V3 m ρ c main_v44 = shapeCast S1x128 (arg m c main_arg6) shapeCasts_S128_S1x128 from
    (bias1 (W2 m ρ c)).trans (congrArg (fun v => shapeCast S1x128 v shapeCasts_S128_S1x128) (W2_b1 m ρ c))]
  exact shapeCast_a_1a_apply _ _ 0 o

/-- Layer 2's output. -/
abbrev H2 : Cert.Net.Feat := Cert.Net.layer (H1 m c) (arg m c main_arg1) (arg m c main_arg5) (arg m c main_arg6) (arg m c main_arg7)

/-- Region 1 leaves layer 2's output in its result array. -/
theorem W4_out : W4 m ρ c (Proc.devRef .tc main_v45) = H2 m c :=
  (W4_arr m ρ c 5).trans ((Region1.final (V3 m ρ) c).trans
    (layer_of (A := V3 m ρ c main_v43) (X := V3 m ρ c main_v24) (Wl := V3 m ρ c main_arg5) (Wr := V3 m ρ c main_arg7) (bv := V3 m ρ c main_v44)
      (V3_agg m ρ c) (V3_x m ρ c) (V3_wl m ρ c) (V3_wr m ρ c) (V3_bias m ρ c)))

/-! ## The last layer -/

theorem W4_src : W4 m ρ c (Proc.devRef .tc main_v1) = val_main_v1 (F := Ideal) (arg m c main_arg1) :=
  (W4_of_ne m ρ c main_v1 (by decide)).trans ((keep1_main_v1 (W2 m ρ c)).trans (W2_src m ρ c))
theorem W4_dst : W4 m ρ c (Proc.devRef .tc main_v3) = val_main_v3 (F := Ideal) (arg m c main_arg1) :=
  (W4_of_ne m ρ c main_v3 (by decide)).trans ((keep1_main_v3 (W2 m ρ c)).trans (W2_dst m ρ c))

theorem V5_agg : V5 m ρ c main_v64 = Cert.Net.agg (H2 m c) (arg m c main_arg1) :=
  (agg2 (W4 m ρ c) (arg m c main_arg1) (W4_src m ρ c) (W4_dst m ρ c)).trans (congrArg (fun h => Cert.Net.agg h (arg m c main_arg1)) (W4_out m ρ c))
theorem V5_x : V5 m ρ c main_v45 = H2 m c := (keep2_main_v45 (W4 m ρ c)).trans (W4_out m ρ c)
theorem W4_keep8 : W4 m ρ c (Proc.devRef .tc main_arg8) = arg m c main_arg8 :=
  (W4_of_ne m ρ c main_arg8 (by decide)).trans ((keep1_main_arg8 (W2 m ρ c)).trans ((W2_of_ne m ρ c main_arg8 (by decide)).trans (keep0_main_arg8 (W0 m ρ c))))
theorem W4_keep9 : W4 m ρ c (Proc.devRef .tc main_arg9) = arg m c main_arg9 :=
  (W4_of_ne m ρ c main_arg9 (by decide)).trans ((keep1_main_arg9 (W2 m ρ c)).trans ((W2_of_ne m ρ c main_arg9 (by decide)).trans (keep0_main_arg9 (W0 m ρ c))))
theorem W4_keep10 : W4 m ρ c (Proc.devRef .tc main_arg10) = arg m c main_arg10 :=
  (W4_of_ne m ρ c main_arg10 (by decide)).trans ((keep1_main_arg10 (W2 m ρ c)).trans ((W2_of_ne m ρ c main_arg10 (by decide)).trans (keep0_main_arg10 (W0 m ρ c))))
theorem V5_wl : V5 m ρ c main_arg8 = arg m c main_arg8 := (keep2_main_arg8 (W4 m ρ c)).trans (W4_keep8 m ρ c)
theorem V5_wr : V5 m ρ c main_arg10 = arg m c main_arg10 := (keep2_main_arg10 (W4 m ρ c)).trans (W4_keep10 m ρ c)
theorem V5_bias (o : Fin 64) : V5 m ρ c main_v65 (ix2 (0 : Fin 1) o) = arg m c main_arg9 (ix1 o) := by
  rw [show V5 m ρ c main_v65 = shapeCast S1x64 (arg m c main_arg9) shapeCasts_S64_S1x64 from
    (bias2 (W4 m ρ c)).trans (congrArg (fun v => shapeCast S1x64 v shapeCasts_S64_S1x64) (W4_keep9 m ρ c))]
  exact shapeCast_a_1a_apply _ _ 0 o

/-- The result array at the last boundary is the network of the launch arrays. -/
theorem W6_out : W6 m ρ c (Proc.devRef .tc main_v66)
    = Cert.Net.net (arg m c main_arg0) (arg m c main_arg1) (arg m c main_arg2) (arg m c main_arg3) (arg m c main_arg4)
        (arg m c main_arg5) (arg m c main_arg6) (arg m c main_arg7) (arg m c main_arg8) (arg m c main_arg9) (arg m c main_arg10) :=
  (W6_arr m ρ c 5).trans ((Region2.final (V5 m ρ) c).trans
    (lastLayer_of (A := V5 m ρ c main_v64) (X := V5 m ρ c main_v45) (Wl := V5 m ρ c main_arg8) (Wr := V5 m ρ c main_arg10) (bv := V5 m ρ c main_v65)
      (V5_agg m ρ c) (V5_x m ρ c) (V5_wl m ρ c) (V5_wr m ρ c) (V5_bias m ρ c)))

end Cert.KernelIdeal.Fold

end
-- ==== Proof.RefValue.lean ====
/-
  The reference program computes the specification's network.

  The reference is a three-layer graph network on 50000 nodes. In each layer it first forms, for every node, the mean
  of the feature rows of the node's in-neighbours (rows gathered at the edges' sources, summed into the edges' targets,
  divided by the in-degree clamped below at one), and then, at row r and column o, the number

      (Σ_k A[r,k]·Wl[k,o] + b[o]) + Σ_k X[r,k]·Wr[k,o],

  where X are the layer's input features, A their aggregate, Wl and Wr the layer's two weight matrices and b its bias;
  the first two layers take the maximum of that with zero, the last one (64 columns wide) does not.

  The aggregation of the second and third layers is the same composition of operations as the first layer's, on the
  same edge list, applied to the previous layer's output: as terms they unfold to the same expression, so they are the
  specification's aggregate of that output. Each dense stage is read entry by entry: a matrix product at (r, o) is the
  sum over k of row r against column o, the broadcast bias at (r, o) is b[o], and the grouping of the three summands
  is already the specification's. Chaining the three layers gives the specification's network.
-/
import proofs.«171535_j16862041604204_1_alg».proof.Proof.Gen.ReferenceIdeal.Read
import proofs.«171535_j16862041604204_1_alg».proof.Proof.NetSpec
import Idealize.ShloMosaic.Lib.ValueIdx

noncomputable section

namespace Cert.ReferenceIdeal.RefValue

open Idealize.ShloMosaic Idealize.ShloMosaic.ValueIdx Cert.ReferenceIdeal Cert.ReferenceIdeal.Read Cert.Layer

section Layers

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128x64, .f32⟩ : BufTy).Contents (Elt Ideal))
  (x9 : (⟨S64, .f32⟩ : BufTy).Contents (Elt Ideal))
  (x10 : (⟨S128x64, .f32⟩ : BufTy).Contents (Elt Ideal))

/-! ## The aggregation of the later layers is the specification's aggregate of the previous layer's output -/

/-- The second layer's mean over in-neighbours is the first layer's aggregation applied to the first layer's output:
    the same gather, scatter-add, degree count, clamp and division over the same edge list. -/
theorem agg_layer2 :
    val_main_v48 (F := Ideal) x0 x1 x2 x3 x4 = Cert.Net.agg (val_main_v29 (F := Ideal) x0 x1 x2 x3 x4) x1 := rfl

/-- The third layer's mean over in-neighbours, likewise, of the second layer's output. -/
theorem agg_layer3 :
    val_main_v74 (F := Ideal) x0 x1 x2 x3 x4 x5 x6 x7 = Cert.Net.agg (val_main_v55 (F := Ideal) x0 x1 x2 x3 x4 x5 x6 x7) x1 := rfl

/-! ## The index functions of the generated stage readings, at an index given by its coordinates -/

theorem lidx_v23 (p : Fin 50000) (q : Fin 128) (k : Fin 128) : lidx_main_v23 (ix2 p q) k = ix2 p k :=
  funext fun a => Fin.ext (by match a with | ⟨0, _⟩ => rfl | ⟨1, _⟩ => rfl)
theorem ridx_v23 (p : Fin 50000) (q : Fin 128) (k : Fin 128) : ridx_main_v23 (ix2 p q) k = ix2 k q :=
  funext fun a => Fin.ext (by match a with | ⟨0, _⟩ => rfl | ⟨1, _⟩ => rfl)
theorem lidx_v27 (p : Fin 50000) (q : Fin 128) (k : Fin 128) : lidx_main_v27 (ix2 p q) k = ix2 p k :=
  funext fun a => Fin.ext (by match a with | ⟨0, _⟩ => rfl | ⟨1, _⟩ => rfl)
theorem ridx_v27 (p : Fin 50000) (q : Fin 128) (k : Fin 128) : ridx_main_v27 (ix2 p q) k = ix2 k q :=
  funext fun a => Fin.ext (by match a with | ⟨0, _⟩ => rfl | ⟨1, _⟩ => rfl)
theorem lidx_v49 (p : Fin 50000) (q : Fin 128) (k : Fin 128) : lidx_main_v49 (ix2 p q) k = ix2 p k :=
  funext fun a => Fin.ext (by match a with | ⟨0, _⟩ => rfl | ⟨1, _⟩ => rfl)
theorem ridx_v49 (p : Fin 50000) (q : Fin 128) (k : Fin 128) : ridx_main_v49 (ix2 p q) k = ix2 k q :=
  funext fun a => Fin.ext (by match a with | ⟨0, _⟩ => rfl | ⟨1, _⟩ => rfl)
theorem lidx_v53 (p : Fin 50000) (q : Fin 128) (k : Fin 128) : lidx_main_v53 (ix2 p q) k = ix2 p k :=
  funext fun a => Fin.ext (by match a with | ⟨0, _⟩ => rfl | ⟨1, _⟩ => rfl)
theorem ridx_v53 (p : Fin 50000) (q : Fin 128) (k : Fin 128) : ridx_main_v53 (ix2 p q) k = ix2 k q :=
  funext fun a => Fin.ext (by match a with | ⟨0, _⟩ => rfl | ⟨1, _⟩ => rfl)
theorem lidx_v75 (p : Fin 50000) (q : Fin 64) (k : Fin 128) : lidx_main_v75 (ix2 p q) k = ix2 p k :=
  funext fun a => Fin.ext (by match a with | ⟨0, _⟩ => rfl | ⟨1, _⟩ => rfl)
theorem ridx_v75 (p : Fin 50000) (q : Fin 64) (k : Fin 128) : ridx_main_v75 (ix2 p q) k = ix2 k q :=
  funext fun a => Fin.ext (by match a with | ⟨0, _⟩ => rfl | ⟨1, _⟩ => rfl)
theorem lidx_v79 (p : Fin 50000) (q : Fin 64) (k : Fin 128) : lidx_main_v79 (ix2 p q) k = ix2 p k :=
  funext fun a => Fin.ext (by match a with | ⟨0, _⟩ => rfl | ⟨1, _⟩ => rfl)
theorem ridx_v79 (p : Fin 50000) (q : Fin 64) (k : Fin 128) : ridx_main_v79 (ix2 p q) k = ix2 k q :=
  funext fun a => Fin.ext (by match a with | ⟨0, _⟩ => rfl | ⟨1, _⟩ => rfl)

/-! ## The matrix products, entry by entry -/

/-- First layer, aggregate against the left weights: row p of the aggregate of the input against column q. -/
theorem dot_v23 (p : Fin 50000) (q : Fin 128) :
    val_main_v23 (F := Ideal) x0 x1 x2 (ix2 p q) = ∑ k : Fin 128, Cert.Net.agg x0 x1 (ix2 p k) * x2 (ix2 k q) := by
  rw [val_main_v23_apply]
  exact Finset.sum_congr rfl fun k _ => by rw [lidx_v23, ridx_v23]; rfl

/-- First layer, input features against the right weights. -/
theorem dot_v27 (p : Fin 50000) (q : Fin 128) :
    val_main_v27 (F := Ideal) x0 x4 (ix2 p q) = ∑ k : Fin 128, x0 (ix2 p k) * x4 (ix2 k q) := by
  rw [val_main_v27_apply]
  exact Finset.sum_congr rfl fun k _ => by rw [lidx_v27, ridx_v27]

/-- Second layer, aggregate against the left weights. -/
theorem dot_v49 (p : Fin 50000) (q : Fin 128) :
    val_main_v49 (F := Ideal) x0 x1 x2 x3 x4 x5 (ix2 p q) = ∑ k : Fin 128, val_main_v48 (F := Ideal) x0 x1 x2 x3 x4 (ix2 p k) * x5 (ix2 k q) := by
  rw [val_main_v49_apply]
  exact Finset.sum_congr rfl fun k _ => by rw [lidx_v49, ridx_v49]

/-- Second layer, its input features (the first layer's output) against the right weights. -/
theorem dot_v53 (p : Fin 50000) (q : Fin 128) :
    val_main_v53 (F := Ideal) x0 x1 x2 x3 x4 x7 (ix2 p q) = ∑ k : Fin 128, val_main_v29 (F := Ideal) x0 x1 x2 x3 x4 (ix2 p k) * x7 (ix2 k q) := by
  rw [val_main_v53_apply]
  exact Finset.sum_congr rfl fun k _ => by rw [lidx_v53, ridx_v53]

/-- Third layer, aggregate against the left weights (64 columns). -/
theorem dot_v75 (p : Fin 50000) (q : Fin 64) :
    val_main_v75 (F := Ideal) x0 x1 x2 x3 x4 x5 x6 x7 x8 (ix2 p q) = ∑ k : Fin 128, val_main_v74 (F := Ideal) x0 x1 x2 x3 x4 x5 x6 x7 (ix2 p k) * x8 (ix2 k q) := by
  rw [val_main_v75_apply]
  exact Finset.sum_congr rfl fun k _ => by rw [lidx_v75, ridx_v75]

/-- Third layer, its input features (the second layer's output) against the right weights. -/
theorem dot_v79 (p : Fin 50000) (q : Fin 64) :
    val_main_v79 (F := Ideal) x0 x1 x2 x3 x4 x5 x6 x7 x10 (ix2 p q) = ∑ k : Fin 128, val_main_v55 (F := Ideal) x0 x1 x2 x3 x4 x5 x6 x7 (ix2 p k) * x10 (ix2 k q) := by
  rw [val_main_v79_apply]
  exact Finset.sum_congr rfl fun k _ => by rw [lidx_v79, ridx_v79]

/-! ## The broadcast biases and the rectifier's zero, entry by entry -/

/-- A bias broadcast along the rows reads, at (p, q), the bias at q. -/
theorem bias_v25 (p : Fin 50000) (q : Fin 128) : val_main_v25 (F := Ideal) x3 (ix2 p q) = x3 (ix1 q) := by
  rw [val_main_v25_apply, val_main_v24_apply]
  exact congrArg x3 (funext fun a => Fin.ext (by match a with | ⟨0, _⟩ => rfl))
theorem bias_v51 (p : Fin 50000) (q : Fin 128) : val_main_v51 (F := Ideal) x6 (ix2 p q) = x6 (ix1 q) := by
  rw [val_main_v51_apply, val_main_v50_apply]
  exact congrArg x6 (funext fun a => Fin.ext (by match a with | ⟨0, _⟩ => rfl))
theorem bias_v77 (p : Fin 50000) (q : Fin 64) : val_main_v77 (F := Ideal) x9 (ix2 p q) = x9 (ix1 q) := by
  rw [val_main_v77_apply, val_main_v76_apply]
  exact congrArg x9 (funext fun a => Fin.ext (by match a with | ⟨0, _⟩ => rfl))

/-- The rectifier's second operand is the f32 zero word's value at every entry. -/
theorem zero_call0 (i : S50000x128.Idx) : val_main_call0_v0 (F := Ideal) i = Ideal.ofBits .f32 0x00000000#32 := by
  rw [val_main_call0_v0_apply, val_main_call0_cst_apply]
  rfl
theorem zero_call1 (i : S50000x128.Idx) : val_main_call1_v0 (F := Ideal) i = Ideal.ofBits .f32 0x00000000#32 := by
  rw [val_main_call1_v0_apply, val_main_call1_cst_apply]
  rfl

/-! ## The three layers -/

/-- The first layer of the reference is the specification's rectified layer of the input features. -/
theorem ref_layer1 :
    val_main_v29 (F := Ideal) x0 x1 x2 x3 x4 = Cert.Net.layer x0 x1 x2 x3 x4 := by
  funext i
  obtain ⟨p, q, rfl⟩ : ∃ (p : Fin 50000) (q : Fin 128), i = ix2 p q := ⟨i 0, i 1, eq_ix2 i⟩
  rw [val_main_v29_apply, val_main_v28_apply, val_main_v26_apply, dot_v23, bias_v25, dot_v27, zero_call0]
  rfl

/-- The second layer of the reference is the specification's rectified layer of the first layer's output. -/
theorem ref_layer2 :
    val_main_v55 (F := Ideal) x0 x1 x2 x3 x4 x5 x6 x7 = Cert.Net.layer (val_main_v29 (F := Ideal) x0 x1 x2 x3 x4) x1 x5 x6 x7 := by
  funext i
  obtain ⟨p, q, rfl⟩ : ∃ (p : Fin 50000) (q : Fin 128), i = ix2 p q := ⟨i 0, i 1, eq_ix2 i⟩
  rw [val_main_v55_apply, val_main_v54_apply, val_main_v52_apply, dot_v49, bias_v51, dot_v53, zero_call1, agg_layer2]
  rfl

/-- The last layer of the reference is the specification's last layer of the second layer's output. -/
theorem ref_layer3 :
    val_main_v80 (F := Ideal) x0 x1 x2 x3 x4 x5 x6 x7 x8 x9 x10 = Cert.Net.lastLayer (val_main_v55 (F := Ideal) x0 x1 x2 x3 x4 x5 x6 x7) x1 x8 x9 x10 := by
  funext i
  obtain ⟨p, q, rfl⟩ : ∃ (p : Fin 50000) (q : Fin 64), i = ix2 p q := ⟨i 0, i 1, eq_ix2 i⟩
  rw [val_main_v80_apply, val_main_v78_apply, dot_v75, bias_v77, dot_v79, agg_layer3]
  rfl

end Layers

/-- The reference program's result is the specification's network of its eleven arguments. -/
theorem ref_net (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) :
    Cert.ReferenceIdeal.Read.val_main_v80 (F := Ideal) x0 x1 x2 x3 x4 x5 x6 x7 x8 x9 x10 = Cert.Net.net x0 x1 x2 x3 x4 x5 x6 x7 x8 x9 x10 := by
  rw [ref_layer3, ref_layer2, ref_layer1]
  rfl

end Cert.ReferenceIdeal.RefValue

end
-- ==== Proof.lean ====
/-
  A three-layer graph network, computed by a kernel program and by a plain reference, is the same function of its inputs
  on the extended reals.

  Both programs take node features x (50000 × 128), an edge list e (2 × 800000) and, per layer, two weight matrices and a
  bias. A layer first forms the mean aggregate A of the current features H over each node's in-neighbours (gather the
  source rows, add them into the target rows, divide by the in-degree clamped below at one), then the dense combine
  A·Wl + b + H·Wr, rectified in the first two layers. Both programs compute the aggregate with the same host operations;
  they differ in the dense combine: the reference does it on the host as (A·Wl + b) + H·Wr over all 50000 rows at once,
  the kernel as a grid of ten blocks of 5000 rows, each block rounding its operands to bf16 (the identity on the ideal
  values), multiplying into zero accumulators and adding as (A·Wl + H·Wr) + b. Addition of extended reals is commutative
  and associative, so the two groupings agree with no finiteness needed; an entry of the combine reads only its own row
  of A and H, so the ten blocks are rows of one function of the whole arrays.

  The pieces: `LayerSpec` / `NetSpec` state the function; `KernelPayload`, `KernelRegion0…2`, `KernelHost`, `KernelFold`
  and `KernelRun` show the kernel program ends with it in its result array; `RefValue` shows the reference's generated
  run term is it. The frames of the two kernel programs are the generated ones; the reference's is its generated run with
  the result dropped; the idealization rewrote nothing, so it preserves the kernel trivially.
-/
import proofs.«171535_j16862041604204_1_alg».proof.Defs
import proofs.«171535_j16862041604204_1_alg».proof.Proof.Gen.Kernel
import proofs.«171535_j16862041604204_1_alg».proof.Proof.Gen.Kernel.Skeleton
import proofs.«171535_j16862041604204_1_alg».proof.Proof.Gen.Kernel.Launch
import proofs.«171535_j16862041604204_1_alg».proof.Proof.Gen.Kernel.Points
import proofs.«171535_j16862041604204_1_alg».proof.Proof.Gen.Kernel.Frame
import proofs.«171535_j16862041604204_1_alg».proof.Proof.Gen.KernelIdeal
import proofs.«171535_j16862041604204_1_alg».proof.Proof.Gen.KernelIdeal.Skeleton
import proofs.«171535_j16862041604204_1_alg».proof.Proof.Gen.KernelIdeal.Launch
import proofs.«171535_j16862041604204_1_alg».proof.Proof.Gen.KernelIdeal.Points
import proofs.«171535_j16862041604204_1_alg».proof.Proof.Gen.KernelIdeal.Frame
import proofs.«171535_j16862041604204_1_alg».proof.Proof.Gen.ReferenceIdeal
import proofs.«171535_j16862041604204_1_alg».proof.Proof.Gen.ReferenceIdeal.Run
import proofs.«171535_j16862041604204_1_alg».proof.Proof.Gen.ReferenceIdeal.Read
import proofs.«171535_j16862041604204_1_alg».proof.Proof.Gen.Pre_finite_inputs
import proofs.«171535_j16862041604204_1_alg».proof.Proof.NetSpec
import proofs.«171535_j16862041604204_1_alg».proof.Proof.KernelRun
import proofs.«171535_j16862041604204_1_alg».proof.Proof.KernelFold
import proofs.«171535_j16862041604204_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the (agreeing) argument arrays in their result arrays. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.W6_out m ρ c), (h c).2⟩)
      (Cert.KernelIdeal.Run.run_named m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v80_eq, Cert.ReferenceIdeal.RefValue.ref_net,
      a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
